-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S64x24 : Shape := ⟨2, ![64, 24]⟩
abbrev S24 : Shape := ⟨1, ![24]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_

variable [Facts]

def fn {F : FTy → Type} [FloatOps F] (main_arg0 : FVec F S32x1024x64 .f32) (main_arg1 : FVec F S64x24 .f32) (main_arg2 : FVec F S24 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S64x24 .f32 := Host.absf main_arg1
  let main_cst_0 : FVec F S_ .f32 := constant S_ .f32 0x7F800000#32
  let main_v5 : FVec F S64x24 .f32 := broadcastInDim S64x24 ![] bcast_S_S64x24 main_cst_0
  let main_v6 : IVec S64x24 1 := cmpf .olt main_v4 main_v5
  let main_c_1 : IVec S_ 1 := constantI S_ 1 1#1
  let main_v7 : IVec S_ 1 := (fun x v => Host.reduce IntOp.andi x v reducesTo_S64x24_S_d0_1 h_S_) main_v6 main_c_1
  let main_v8 : IVec S_ 1 := andi main_v3 main_v7
  let main_v9 : FVec F S24 .f32 := Host.absf main_arg2
  let main_cst_2 : FVec F S_ .f32 := constant S_ .f32 0x7F800000#32
  let main_v10 : FVec F S24 .f32 := broadcastInDim S24 ![] bcast_S_S24 main_cst_2
  let main_v11 : IVec S24 1 := cmpf .olt main_v9 main_v10
  let main_c_3 : IVec S_ 1 := constantI S_ 1 1#1
  let main_v12 : IVec S_ 1 := (fun x v => Host.reduce IntOp.andi x v reducesTo_S24_S_d0 h_S_) main_v11 main_c_3
  let main_v13 : IVec S_ 1 := andi main_v8 main_v12
  main_v13
-- ==== Kernel.lean ====
abbrev S32x1024x64 : Shape := ⟨3, ![32, 1024, 64]⟩
abbrev S64x24 : Shape := ⟨2, ![64, 24]⟩
abbrev S24 : Shape := ⟨1, ![24]⟩
abbrev S32x1024x1024 : Shape := ⟨3, ![32, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024x24 : Shape := ⟨2, ![1024, 24]⟩
abbrev S1x24 : Shape := ⟨2, ![1, 24]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32x1024x64, .f32⟩
  | .hbm, ⟨1, _⟩ => ⟨S64x24, .f32⟩
  | .hbm, ⟨2, _⟩ => ⟨S24, .f32⟩
  | .hbm, ⟨3, _⟩ => ⟨S32x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S64x24, .f32⟩
  | .local _ .vmem, ⟨3, _⟩ => ⟨S24, .f32⟩
  | .local _ .vmem, ⟨4, _⟩ => ⟨S1x1024x1024, .f32⟩
  | .local _ .vmem, ⟨5, _⟩ => ⟨S1x1024x1024, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x24_S64x24_0_0 : ∀ a, (![0, 0] : Fin 2 → Nat) a + S64x24.size a ≤ S64x24.size a
  h_S64x24 : 0 < S64x24.numel
  inb_S24_S24_0 : ∀ a, (![0] : Fin 1 → Nat) a + S24.size a ≤ S24.size a
  h_S24 : 0 < S24.numel
  bitsLt_bf16_f32 : FTy.bits .bf16 < FTy.bits .f32
  shapeCasts_S24_S1x24 : S24.ShapeCasts S1x24
  broadcasts_S1x24_S1024x24 : S1x24.Broadcasts S1024x24
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  iota_S1024x1_d0_w32 : S1024x1.Iotas .tc 32 [0]
  iota_S1x1024_d1_w32 : S1x1024.Iotas .tc 32 [1]
  natLt_1_32 : 1 < 32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x24_S1024x24_1_0_0_1_n_n_wf : DotDims.WF S1024x64 S64x24 S1024x24 [1] [0] [0] [1] [] []
  dot_S1024x24_S1024x24_S1024x1024_1_1_0_0_n_n_wf : DotDims.WF S1024x24 S1024x24 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x1024x64.size a
  hwx0_0 : ∀ i : grid0.Coords, EltTy.bits .f32 = 32 ∨ (Rect.block (s := S32x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x24.size a ≤ S64x24.size a
  hwx0_1 : ∀ i : grid0.Coords, EltTy.bits .f32 = 32 ∨ (Rect.block (s := S64x24) S64x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24.size a ≤ S24.size a
  hwx0_2 : ∀ i : grid0.Coords, EltTy.bits .f32 = 32 ∨ (Rect.block (s := S24) S24.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x1024x1024.size a
  hwx0_3 : ∀ i : grid0.Coords, EltTy.bits .f32 = 32 ∨ (Rect.block (s := S32x1024x1024) S1x1024x1024.size (cc0_transform_3 i) (hinb0_3 i)).WholeWords (EltTy.packing .f32)

variable [Facts₀]

def dot_S1024x64_S64x24_S1024x24_1_0_0_1_n_n : DotDims S1024x64 S64x24 S1024x24 where
  lhsContracting := [1]
  rhsContracting := [0]
  lhsNonContracting := [0]
  rhsNonContracting := [1]
  lhsBatch := []
  rhsBatch := []
  wf := dot_S1024x64_S64x24_S1024x24_1_0_0_1_n_n_wf
def dot_S1024x24_S1024x24_S1024x1024_1_1_0_0_n_n : DotDims S1024x24 S1024x24 S1024x1024 where
  lhsContracting := [1]
  rhsContracting := [1]
  lhsNonContracting := [0]
  rhsNonContracting := [0]
  lhsBatch := []
  rhsBatch := []
  wf := dot_S1024x24_S1024x24_S1024x1024_1_1_0_0_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S64x24 : Shape := ⟨2, ![64, 24]⟩
abbrev S24 : Shape := ⟨1, ![24]⟩
abbrev S32x1024x24 : Shape := ⟨3, ![32, 1024, 24]⟩
abbrev S1x1x24 : Shape := ⟨3, ![1, 1, 24]⟩
abbrev S_ : Shape := ⟨0, ![]⟩
abbrev S32x1024x1024 : Shape := ⟨3, ![32, 1024, 1024]⟩
abbrev S32x1024 : Shape := ⟨2, ![32, 1024]⟩
abbrev S32x1024x1 : Shape := ⟨3, ![32, 1024, 1]⟩
abbrev S32x1x1024 : Shape := ⟨3, ![32, 1, 1024]⟩
abbrev S1024x1024 : Shape := ⟨2, ![1024, 1024]⟩
abbrev S1x1024x1024 : Shape := ⟨3, ![1, 1024, 1024]⟩

abbrev nBuf : Space → Nat
  | .hbm => 68
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S64x24, .f32⟩
  | .hbm, ⟨2, _⟩ => ⟨S24, .f32⟩
  | .hbm, ⟨3, _⟩ => ⟨S32x1024x24, .f32⟩
  | .hbm, ⟨4, _⟩ => ⟨S1x1x24, .f32⟩
  | .hbm, ⟨5, _⟩ => ⟨S32x1024x24, .f32⟩
  | .hbm, ⟨6, _⟩ => ⟨S32x1024x24, .f32⟩
  | .hbm, ⟨7, _⟩ => ⟨S_, .f32⟩
  | .hbm, ⟨8, _⟩ => ⟨S32x1024x24, .f32⟩
  | .hbm, ⟨9, _⟩ => ⟨S32x1024x24, .f32⟩
  | .hbm, ⟨10, _⟩ => ⟨S32x1024x1024, .f32⟩
  | .hbm, ⟨11, _⟩ => ⟨S_, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1024x1, .f32⟩
  | .hbm, ⟨17, _⟩ => ⟨S32x1024x1024, .f32⟩
  | .hbm, ⟨18, _⟩ => ⟨S32x1024x1024, .f32⟩
  | .hbm, ⟨19, _⟩ => ⟨S32x1024x1024, .f32⟩
  | .hbm, ⟨20, _⟩ => ⟨S_, .f32⟩
  | .hbm, ⟨21, _⟩ => ⟨S32x1024, .f32⟩
  | .hbm, ⟨22, _⟩ => ⟨S32x1024x1, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S32x1x1024, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S_, .f32⟩
  | .hbm, ⟨35, _⟩ => ⟨S32x1024, .f32⟩
  | .hbm, ⟨36, _⟩ => ⟨S32x1x1024, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | .hbm, ⟨40, _⟩ => ⟨S_, .f32⟩
  | .hbm, ⟨41, _⟩ => ⟨S32x1024x1024, .f32⟩
  | .hbm, ⟨42, _⟩ => ⟨S32x1024x1024, .f32⟩
  | .hbm, ⟨43, _⟩ => ⟨S1024x1024, .i32⟩
  | .hbm, ⟨44, _⟩ => ⟨S1024x1024, .i32⟩
  | .hbm, ⟨45, _⟩ => ⟨S_, .i32⟩
  | .hbm, ⟨46, _⟩ => ⟨S1024x1024, .i32⟩
  | .hbm, ⟨47, _⟩ => ⟨S1024x1024, .i32⟩
  | .hbm, ⟨48, _⟩ => ⟨S1024x1024, .i1⟩
  | .hbm, ⟨49, _⟩ => ⟨S1024x1024, .f32⟩
  | .hbm, ⟨50, _⟩ => ⟨S1x1024x1024, .f32⟩
  | .hbm, ⟨51, _⟩ => ⟨S32x1024x1024, .f32⟩
  | .hbm, ⟨52, _⟩ => ⟨S32x1024x1024, .f32⟩
  | .hbm, ⟨53, _⟩ => ⟨S_, .f32⟩
  | .hbm, ⟨54, _⟩ => ⟨S32x1024, .f32⟩
  | .hbm, ⟨55, _⟩ => ⟨S_, .f32⟩
  | .hbm, ⟨56, _⟩ => ⟨S_, .f32⟩
  | .hbm, ⟨57, _⟩ => ⟨S32x1024, .f32⟩
  | .hbm, ⟨58, _⟩ => ⟨S32x1024, .f32⟩
  | .hbm, ⟨59, _⟩ => ⟨S_, .f32⟩
  | .hbm, ⟨60, _⟩ => ⟨S32x1024, .f32⟩
  | .hbm, ⟨61, _⟩ => ⟨S32x1024, .f32⟩
  | .hbm, ⟨62, _⟩ => ⟨S32x1024x1, .f32⟩
  | .hbm, ⟨63, _⟩ => ⟨S32x1024x1024, .f32⟩
  | .hbm, ⟨64, _⟩ => ⟨S32x1024x1024, .f32⟩
  | .hbm, ⟨65, _⟩ => ⟨S32x1x1024, .f32⟩
  | .hbm, ⟨66, _⟩ => ⟨S32x1024x1024, .f32⟩
  | .hbm, ⟨67, _⟩ => ⟨S32x1024x1024, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_cst_7 : Ref sig .tc := ⟨.hbm, 55, rfl⟩
abbrev main_call1_v0 : Ref sig .tc := ⟨.hbm, 56, rfl⟩
abbrev main_call1_v1 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  bcast_S24_S1x1x24_2 : S24.BroadcastsInDim S1x1x24 (![2] : Fin 1 → Fin S1x1x24.rank)
  bcast_S1x1x24_S32x1024x24_0_1_2 : S1x1x24.BroadcastsInDim S32x1024x24 (![0, 1, 2] : Fin 3 → Fin S32x1024x24.rank)
  bcast_S_S32x1024x24 : S_.BroadcastsInDim S32x1024x24 (![] : Fin 0 → Fin S32x1024x24.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  reducesTo_S32x1024x1024_S32x1024_d1 : S32x1024x1024.ReducesTo [1] S32x1024
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  dot_S32x1024x64_S64x24_S32x1024x24_2_0_01_1_n_n_wf : DotDims.WF S32x1024x64 S64x24 S32x1024x24 [2] [0] [0, 1] [1] [] []
  dot_S32x1024x24_S32x1024x24_S32x1024x1024_2_2_1_1_0_0_wf : DotDims.WF S32x1024x24 S32x1024x24 S32x1024x1024 [2] [2] [1] [1] [0] [0]

variable [Facts₀]

def dot_S32x1024x64_S64x24_S32x1024x24_2_0_01_1_n_n : DotDims S32x1024x64 S64x24 S32x1024x24 where
  lhsContracting := [2]
  rhsContracting := [0]
  lhsNonContracting := [0, 1]
  rhsNonContracting := [1]
  lhsBatch := []
  rhsBatch := []
  wf := dot_S32x1024x64_S64x24_S32x1024x24_2_0_01_1_n_n_wf
def dot_S32x1024x24_S32x1024x24_S32x1024x1024_2_2_1_1_0_0 : DotDims S32x1024x24 S32x1024x24 S32x1024x1024 where
  lhsContracting := [2]
  rhsContracting := [2]
  lhsNonContracting := [1]
  rhsNonContracting := [1]
  lhsBatch := [0]
  rhsBatch := [0]
  wf := dot_S32x1024x24_S32x1024x24_S32x1024x1024_2_2_1_1_0_0_wf

class Facts : Prop extends Facts₀ where

variable [Facts]
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.LibBlockFold.lean ====
/-
  More vector operations of a rank-two block read at an index written by its coordinates, at any extents.

  * the sum of a `[a, b]` block along its FIRST axis is, at column `c`, the sum over `k` of the block at `(k, c)`;
  * the largest entry along the second axis is, at row `p`, the fold of `max` from the accumulator over the block at
    `(p, k)`; along the first axis, at column `c`, over the block at `(k, c)`;
  * a matrix product `[m, k] · [n, k]ᵀ` (both factors contracted over their second axis) into a zero accumulator is,
    at `(p, c)`, the sum over `t` of the left factor at `(p, t)` times the right factor at `(c, t)` — given where the
    dimension numbers send an output index and a contraction index (four coordinate facts, one line each at a
    literal record).
-/
import Idealize.ShloMosaic.Lib.ValueIdx
import Idealize.ShloMosaic.Lib.Pipeline.Value
import Idealize.ShloMosaic.PureOps.Ideal.Laws

noncomputable section

open scoped BigOperators

namespace Cert.BlockFold

open Idealize.ShloMosaic Idealize.ShloMosaic.ValueIdx

/-- The sum of a `[a, b]` block along its first axis, at column `c`: the sum over `k` of the block at `(k, c)`. -/
theorem colSum_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (funext fun ax => Fin.ext (by
      match ax with
      | ⟨0, _⟩ => rfl
      | ⟨1, _⟩ => rfl)))

/-- The largest entry of row `p` of a `[a, b]` block: `max` folded from the accumulator over the row. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (funext fun ax => Fin.ext (by
        match ax with
        | ⟨0, _⟩ => rfl
        | ⟨1, _⟩ => rfl))))

/-- The largest entry of column `c` of a `[a, b]` block. -/
theorem colMax_apply {φ : FTy} {a b : ℕ} (src : FVec Ideal ⟨2, ![a, b]⟩ φ) (acc : BitVec φ.bits)
    (h : (⟨2, ![a, b]⟩ : Shape).Reduces [0] ⟨1, ![b]⟩) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) :=
  (Ideal.multiReduction_maximumf_single src acc h hφ hacc (ix1 c)).trans
    (congrArg (fun f => (Finset.univ : Finset (Fin a)).fold max (Ideal.ofBits φ acc) f)
      (funext fun k => congrArg src (funext fun ax => Fin.ext (by
        match ax with
        | ⟨0, _⟩ => rfl
        | ⟨1, _⟩ => rfl))))

/-- A product of a `[m, k]` block with the transpose of a `[n, k]` block into a zero accumulator, at `(p, c)`. -/
theorem matmul_transposed_apply {m k n : ℕ} {φ₁ φ₂ : FTy} (D : DotDims ⟨2, ![m, k]⟩ ⟨2, ![n, k]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (lhs : FVec Ideal ⟨2, ![m, k]⟩ φ₁) (rhs : FVec Ideal ⟨2, ![n, k]⟩ φ₂) (p : Fin m) (c : Fin n) :
    FloatOps.matmul D prec lhs rhs (constant ⟨2, ![m, n]⟩ .f32 0x00000000#32) (ix2 p c)
      = ∑ t : Fin k, lhs (ix2 p t) * rhs (ix2 c t) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 c t := funext fun ax => Fin.ext (by
    match ax with
    | ⟨0, _⟩ => exact hr0 _ _
    | ⟨1, _⟩ => exact (hr1 _ _).trans hk)
  rw [el, er]

end Cert.BlockFold

end
-- ==== Proof.Adjacency.lean ====
/-
  The degree-normalised similarity graph of one batch element, entry by entry, on the extended reals.

  From a block of node inputs `X` (one row per node), a weight matrix `W` and a bias `b`:
  the hidden features are the affine map of each row clipped below at zero; the similarity of two nodes is the inner
  product of their hidden features; that matrix is put through a softmax along its rows and a softmax along its
  columns (each with its maximum subtracted first), the two are averaged, and the identity is added (a self loop per
  node); every row's sum, clipped below at a small positive constant, is the node's degree `d`, and the entry `(n, m)`
  of the result is the looped entry times `d n ^ (-1/2)` times `d m ^ (-1/2)`.

  The reciprocal square root is a parameter `r` of the last step, because the two programs spell it differently: one
  takes `rsqrt d`, the other `d ^ (-1/2)`. On a degree — a maximum with a positive real, so a positive real or `⊤` —
  the two agree (`pow_neg_half_max`), hence so do the two results (`normalised_pow_eq`).
-/
import Idealize.ShloMosaic.PureOps.Ideal

noncomputable section

open scoped BigOperators

namespace Cert.Adjacency

open Idealize.ShloMosaic

variable {N K H : ℕ}

/-- The hidden features: the affine map of node `n`'s inputs, clipped below at zero. -/
def hidden (X : Fin N → Fin K → EReal) (W : Fin K → Fin H → EReal) (b : Fin H → EReal) (n : Fin N) (h : Fin H) : EReal :=
  max ((∑ f : Fin K, X n f * W f h) + b h) (Ideal.ofBits .f32 0x00000000#32)

/-- The similarity of nodes `n` and `m`: the inner product of their hidden features. -/
def similarity (Z : Fin N → Fin H → EReal) (n m : Fin N) : EReal := ∑ h : Fin H, Z n h * Z m h

/-- The largest entry of row `n`, folded from `-∞` (and compared with `-∞` once more, as both programs do). -/
def rowMax (A : Fin N → Fin N → EReal) (n : Fin N) : EReal :=
  max (Ideal.ofBits .f32 0xFF800000#32)
    ((Finset.univ : Finset (Fin N)).fold max (Ideal.ofBits .f32 0xFF800000#32) (fun k => A n k))

/-- The largest entry of column `m`. -/
def colMax (A : Fin N → Fin N → EReal) (m : Fin N) : EReal :=
  max (Ideal.ofBits .f32 0xFF800000#32)
    ((Finset.univ : Finset (Fin N)).fold max (Ideal.ofBits .f32 0xFF800000#32) (fun k => A k m))

/-- The softmax along row `n`, at column `m`. -/
def rowSoftmax (A : Fin N → Fin N → EReal) (n m : Fin N) : EReal :=
  Ideal.div (Ideal.exp (A n m - rowMax A n)) (∑ k : Fin N, Ideal.exp (A n k - rowMax A n))

/-- The softmax along column `m`, at row `n`. -/
def colSoftmax (A : Fin N → Fin N → EReal) (n m : Fin N) : EReal :=
  Ideal.div (Ideal.exp (A n m - colMax A m)) (∑ k : Fin N, Ideal.exp (A k m - colMax A m))

/-- The identity matrix. -/
def eye (n m : Fin N) : EReal := if n = m then 1 else 0

/-- Half the sum of the two softmaxes, plus a self loop. -/
def looped (A : Fin N → Fin N → EReal) (n m : Fin N) : EReal :=
  Ideal.ofBits .f32 0x3F000000#32 * (rowSoftmax A n m + colSoftmax A n m) + eye n m

/-- Node `n`'s degree: its row sum, clipped below at the small positive constant. -/
def degree (A : Fin N → Fin N → EReal) (n : Fin N) : EReal :=
  max (Ideal.ofBits .f32 0x358637BD#32) (∑ k : Fin N, looped A n k)

/-- The looped matrix scaled on both sides by `r` of the degrees. -/
def normalised (r : EReal → EReal) (A : Fin N → Fin N → EReal) (n m : Fin N) : EReal :=
  looped A n m * r (degree A n) * r (degree A m)

/-- The whole map, from one batch element's inputs to an entry of its normalised graph. -/
def adjacency (r : EReal → EReal) (X : Fin N → Fin K → EReal) (W : Fin K → Fin H → EReal) (b : Fin H → EReal)
    (n m : Fin N) : EReal :=
  normalised r (similarity (hidden X W b)) n m

/-! ## The two spellings of the reciprocal square root agree on a degree -/

/-- The word `0xBF000000` is `-1/2`. -/
theorem ofBits_neg_half : Ideal.ofBits .f32 0xBF000000#32 = ((-(1 / 2) : ℝ) : EReal) := by
  simp [Ideal.ofBits, Ideal.ieee, -EReal.coe_mul]; norm_num

/-- The clipping constant is a positive real. -/
theorem ofBits_eps_pos : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- For a positive real `x`, `x ^ (-1/2)` is the reciprocal of the square root. -/
theorem pow_neg_half_coe {x : ℝ} (hx : 0 < x) :
    Ideal.pow (x : EReal) ((-(1 / 2) : ℝ) : EReal) = Ideal.rsqrt (x : EReal) := by
  rw [Ideal.pow_coe_coe, Ideal.rsqrt_coe, if_neg (not_lt.2 hx.le), if_neg hx.ne']
  congr 1
  show x ^ (-(1 / 2) : ℝ) = (Real.sqrt x)⁻¹
  rw [Real.rpow_neg hx.le, Real.sqrt_eq_rpow]

/-- On `max e s` with `e` a positive real — a positive real or `⊤` — the power `-1/2` is the reciprocal square root. -/
theorem pow_neg_half_max (s : EReal) :
    Ideal.pow (max (Ideal.ofBits .f32 0x358637BD#32) s) (Ideal.ofBits .f32 0xBF000000#32)
      = Ideal.rsqrt (max (Ideal.ofBits .f32 0x358637BD#32) s) := by
  obtain ⟨e, he, hE⟩ := ofBits_eps_pos
  rw [hE, ofBits_neg_half]
  induction s using EReal.rec with
  | bot => rw [max_eq_left bot_le]; exact pow_neg_half_coe he
  | top =>
    rw [max_eq_right le_top, Ideal.pow_top, Ideal.rsqrt_top]
    have h1 : ¬ (0 : EReal) < ((-(1 / 2) : ℝ) : EReal) := by
      rw [← EReal.coe_zero, EReal.coe_lt_coe_iff]; norm_num
    have h2 : ((-(1 / 2) : ℝ) : EReal) ≠ 0 := by
      rw [← EReal.coe_zero, Ne, EReal.coe_eq_coe_iff]; norm_num
    rw [if_neg h1, if_neg h2]
  | coe x =>
    rcases le_total e x with h | h
    · rw [max_eq_right (EReal.coe_le_coe_iff.2 h)]; exact pow_neg_half_coe (lt_of_lt_of_le he h)
    · rw [max_eq_left (EReal.coe_le_coe_iff.2 h)]; exact pow_neg_half_coe he

/-- So the normalised graph does not depend on which of the two is used. -/
theorem normalised_pow_eq (A : Fin N → Fin N → EReal) (n m : Fin N) :
    normalised (fun d => Ideal.pow d (Ideal.ofBits .f32 0xBF000000#32)) A n m = normalised Ideal.rsqrt A n m := by
  unfold normalised degree
  beta_reduce
  rw [pow_neg_half_max, pow_neg_half_max]

end Cert.Adjacency

end
-- ==== Proof.SelfLoop.lean ====
/-
  The identity matrix as the two programs build it: a row number and a column number, both below `1024`, written as
  32-bit words, are compared for equality; the one-bit answer is turned into a float — through a 32-bit word read as a
  signed integer on one side, directly as an unsigned integer on the other (which first adds the word `0` to the row
  number). Either way the entry is `1` on the diagonal and `0` off it.
-/
import Idealize.ShloMosaic.PureOps.Ideal

noncomputable section

namespace Cert.SelfLoop

open Idealize.ShloMosaic

/-- Two numbers below `1024` are equal as 32-bit words exactly when they are equal. -/
theorem ofNat_eq_iff {p q : ℕ} (hp : p < 1024) (hq : q < 1024) : BitVec.ofNat 32 p = BitVec.ofNat 32 q ↔ p = q := by
  constructor
  · intro h
    have h' := congrArg BitVec.toNat h
    simp only [BitVec.toNat_ofNat] at h'
    omega
  · rintro rfl; rfl

/-- The comparison's one bit. -/
theorem cmpi_eq_ofNat {p q : ℕ} (hp : p < 1024) (hq : q < 1024) :
    IntOp.cmpi .eq (BitVec.ofNat 32 p) (BitVec.ofNat 32 q) = if p = q then 1#1 else 0#1 := by
  unfold IntOp.cmpi
  by_cases h : p = q
  · subst h; simp
  · rw [if_neg h]
    have hne : BitVec.ofNat 32 p ≠ BitVec.ofNat 32 q := fun e => h ((ofNat_eq_iff hp hq).1 e)
    have hb : (BitVec.ofNat 32 p == BitVec.ofNat 32 q) = false := beq_eq_false_iff_ne.2 hne
    rw [hb]; rfl

/-- Widened to 32 bits and read as a signed integer. -/
theorem sitofp_mask {p q : ℕ} (hp : p < 1024) (hq : q < 1024) :
    FloatOps.sitofp (F := Ideal) .f32 ((IntOp.cmpi .eq (BitVec.ofNat 32 p) (BitVec.ofNat 32 q)).setWidth 32)
      = if p = q then (1 : EReal) else 0 := by
  rw [cmpi_eq_ofNat hp hq]
  show (((((if p = q then 1#1 else 0#1 : BitVec 1).setWidth 32).toInt : ℤ) : ℝ) : EReal) = _
  by_cases h : p = q
  · rw [if_pos h, if_pos h]
    have : ((1#1 : BitVec 1).setWidth 32).toInt = 1 := by decide
    rw [this]; norm_num
  · rw [if_neg h, if_neg h]
    have : ((0#1 : BitVec 1).setWidth 32).toInt = 0 := by decide
    rw [this]; norm_num

/-- Read directly as an unsigned integer, the row number having the word `0` added first. -/
theorem uitofp_mask {p q : ℕ} (hp : p < 1024) (hq : q < 1024) :
    FloatOps.uitofp (F := Ideal) .f32 (IntOp.cmpi .eq (IntOp.addi (BitVec.ofNat 32 p) 0#32) (BitVec.ofNat 32 q))
      = if p = q then (1 : EReal) else 0 := by
  have h0 : IntOp.addi (BitVec.ofNat 32 p) 0#32 = BitVec.ofNat 32 p := by
    unfold IntOp.addi; exact BitVec.add_zero _
  rw [h0, cmpi_eq_ofNat hp hq]
  show ((((if p = q then 1#1 else 0#1 : BitVec 1).toNat : ℕ) : ℝ) : EReal) = _
  by_cases h : p = q
  · rw [if_pos h, if_pos h]
    have : (1#1 : BitVec 1).toNat = 1 := by decide
    rw [this]; norm_num
  · rw [if_neg h, if_neg h]
    have : (0#1 : BitVec 1).toNat = 0 := by decide
    rw [this]; norm_num

end Cert.SelfLoop

end
-- ==== Proof.KernelBlock.lean ====
/-
  One block of the kernel, entry by entry.

  At a grid point the body holds one batch element's inputs `x` (as a `[1, 1024, 64]` block), the weights `w` and the bias
  `b`. Its arithmetic is cut here into the stages of the mathematics — hidden features, similarity, the two softmaxes —
  each a function of whole vectors, and each is read at an index `(n, m)`: a matrix product into a zero accumulator is the
  sum over the contracted coordinate, a reduction along an axis is the sum (or the fold of `max`) over that coordinate, a
  keep-dims column or row broadcast back reads the reduced vector at the row or the column. Put together, the block the
  body stores is, at `(0, n, m)`, the entry `(n, m)` of the degree-normalised similarity graph of that batch element
  (`Cert.Adjacency.adjacency`, with `rsqrt` for the reciprocal square root).
-/
import proofs.«162221_j31258771980291_1_alg».proof.Proof.KernelValueP
import proofs.«162221_j31258771980291_1_alg».proof.Proof.LibBlockRead
import proofs.«162221_j31258771980291_1_alg».proof.Proof.LibBlockFold
import proofs.«162221_j31258771980291_1_alg».proof.Proof.Adjacency
import proofs.«162221_j31258771980291_1_alg».proof.Proof.SelfLoop
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Adjacency

/-! ## Where the two products' dimension numbers send an index -/

theorem lin_l0 (i : S1024x24.Idx) (q : dot_S1024x64_S64x24_S1024x24_1_0_0_1_n_n.contr.Idx) :
    (dot_S1024x64_S64x24_S1024x24_1_0_0_1_n_n.lhsIdx i q 0).val = (i 0).val := by
  unfold DotDims.lhsIdx
  rw [dif_neg (show ¬(0 : Fin S1024x64.rank) ∈ dot_S1024x64_S64x24_S1024x24_1_0_0_1_n_n.lhsBatch by decide), dif_pos (show (0 : Fin S1024x64.rank) ∈ dot_S1024x64_S64x24_S1024x24_1_0_0_1_n_n.lhsNonContracting by decide)]
  rfl
theorem lin_l1 (i : S1024x24.Idx) (q : dot_S1024x64_S64x24_S1024x24_1_0_0_1_n_n.contr.Idx) :
    (dot_S1024x64_S64x24_S1024x24_1_0_0_1_n_n.lhsIdx i q 1).val = (q ⟨0, by decide⟩).val :=
  dot_S1024x64_S64x24_S1024x24_1_0_0_1_n_n.lhsIdx_val_of_single rfl i q
theorem lin_r0 (i : S1024x24.Idx) (q : dot_S1024x64_S64x24_S1024x24_1_0_0_1_n_n.contr.Idx) :
    (dot_S1024x64_S64x24_S1024x24_1_0_0_1_n_n.rhsIdx i q 0).val = (q ⟨0, by decide⟩).val :=
  dot_S1024x64_S64x24_S1024x24_1_0_0_1_n_n.rhsIdx_val_of_single rfl i q
theorem lin_r1 (i : S1024x24.Idx) (q : dot_S1024x64_S64x24_S1024x24_1_0_0_1_n_n.contr.Idx) :
    (dot_S1024x64_S64x24_S1024x24_1_0_0_1_n_n.rhsIdx i q 1).val = (i 1).val := by
  unfold DotDims.rhsIdx
  rw [dif_neg (show ¬(1 : Fin S64x24.rank) ∈ dot_S1024x64_S64x24_S1024x24_1_0_0_1_n_n.rhsBatch by decide), dif_pos (show (1 : Fin S64x24.rank) ∈ dot_S1024x64_S64x24_S1024x24_1_0_0_1_n_n.rhsNonContracting by decide)]
  rfl

theorem sim_l0 (i : S1024x1024.Idx) (q : dot_S1024x24_S1024x24_S1024x1024_1_1_0_0_n_n.contr.Idx) :
    (dot_S1024x24_S1024x24_S1024x1024_1_1_0_0_n_n.lhsIdx i q 0).val = (i 0).val := by
  unfold DotDims.lhsIdx
  rw [dif_neg (show ¬(0 : Fin S1024x24.rank) ∈ dot_S1024x24_S1024x24_S1024x1024_1_1_0_0_n_n.lhsBatch by decide), dif_pos (show (0 : Fin S1024x24.rank) ∈ dot_S1024x24_S1024x24_S1024x1024_1_1_0_0_n_n.lhsNonContracting by decide)]
  rfl
theorem sim_l1 (i : S1024x1024.Idx) (q : dot_S1024x24_S1024x24_S1024x1024_1_1_0_0_n_n.contr.Idx) :
    (dot_S1024x24_S1024x24_S1024x1024_1_1_0_0_n_n.lhsIdx i q 1).val = (q ⟨0, by decide⟩).val :=
  dot_S1024x24_S1024x24_S1024x1024_1_1_0_0_n_n.lhsIdx_val_of_single rfl i q
theorem sim_r0 (i : S1024x1024.Idx) (q : dot_S1024x24_S1024x24_S1024x1024_1_1_0_0_n_n.contr.Idx) :
    (dot_S1024x24_S1024x24_S1024x1024_1_1_0_0_n_n.rhsIdx i q 0).val = (i 1).val := by
  unfold DotDims.rhsIdx
  rw [dif_neg (show ¬(0 : Fin S1024x24.rank) ∈ dot_S1024x24_S1024x24_S1024x1024_1_1_0_0_n_n.rhsBatch by decide), dif_pos (show (0 : Fin S1024x24.rank) ∈ dot_S1024x24_S1024x24_S1024x1024_1_1_0_0_n_n.rhsNonContracting by decide)]
  rfl
theorem sim_r1 (i : S1024x1024.Idx) (q : dot_S1024x24_S1024x24_S1024x1024_1_1_0_0_n_n.contr.Idx) :
    (dot_S1024x24_S1024x24_S1024x1024_1_1_0_0_n_n.rhsIdx i q 1).val = (q ⟨0, by decide⟩).val :=
  dot_S1024x24_S1024x24_S1024x1024_1_1_0_0_n_n.rhsIdx_val_of_single rfl i q

/-! ## The body's stages as functions of whole vectors -/

section Stages
variable {F : FTy → Type} [FloatOps F]

/-- The hidden features of the block: `max (x · w + b) 0`. -/
def hiddenBlock (v0 : Vec F S1x1024x64 .f32) (v2 : Vec F S64x24 .f32) (v3 : Vec F S24 .f32) : FVec F S1024x24 .f32 :=
  maximumf (addf (matmul dot_S1024x64_S64x24_S1024x24_1_0_0_1_n_n none (truncf .bf16 (shapeCast S1024x64 v0 shapeCasts_S1x1024x64_S1024x64) bitsLt_bf16_f32) (truncf .bf16 v2 bitsLt_bf16_f32) (constant S1024x24 .f32 0x00000000#32)) (broadcastTo S1024x24 (shapeCast S1x24 v3 shapeCasts_S24_S1x24) broadcasts_S1x24_S1024x24)) (broadcast S1024x24 (Scalar.ofBits .f32 0x00000000#32))

/-- The similarity matrix `z · zᵀ`. -/
def similarityBlock (z : FVec F S1024x24 .f32) : FVec F S1024x1024 .f32 :=
  matmul dot_S1024x24_S1024x24_S1024x1024_1_1_0_0_n_n none (truncf .bf16 z bitsLt_bf16_f32) (truncf .bf16 z bitsLt_bf16_f32) (constant S1024x1024 .f32 0x00000000#32)

/-- Every entry minus its row's maximum, exponentiated. -/
def rowExp (a : FVec F S1024x1024 .f32) : FVec F S1024x1024 .f32 :=
  exp (subf a (broadcastTo S1024x1024 (shapeCast S1024x1 (maximumf (broadcast S1024 (Scalar.ofBits .f32 0xFF800000#32)) (multiReduction .maximumf [1] S1024 a 0xFF800000#32 reduces_S1024x1024_S1024 (.inl rfl) rfl)) shapeCasts_S1024_S1024x1) broadcasts_S1024x1_S1024x1024))

/-- The softmax along the rows. -/
def rowSoftmaxBlock (a : FVec F S1024x1024 .f32) : FVec F S1024x1024 .f32 :=
  divf (rowExp a) (broadcastTo S1024x1024 (shapeCast S1024x1 (multiReduction .add [1] S1024 (rowExp a) 0x00000000#32 reduces_S1024x1024_S1024 (.inl rfl) rfl) shapeCasts_S1024_S1024x1) broadcasts_S1024x1_S1024x1024)

/-- Every entry minus its column's maximum, exponentiated. -/
def colExp (a : FVec F S1024x1024 .f32) : FVec F S1024x1024 .f32 :=
  exp (subf a (broadcastTo S1024x1024 (shapeCast S1x1024 (maximumf (broadcast S1024 (Scalar.ofBits .f32 0xFF800000#32)) (multiReduction .maximumf [0] S1024 a 0xFF800000#32 reduces_S1024x1024_S1024_2 (.inl rfl) rfl)) shapeCasts_S1024_S1x1024) broadcasts_S1x1024_S1024x1024))

/-- The softmax along the columns. -/
def colSoftmaxBlock (a : FVec F S1024x1024 .f32) : FVec F S1024x1024 .f32 :=
  divf (colExp a) (broadcastTo S1024x1024 (shapeCast S1x1024 (multiReduction .add [0] S1024 (colExp a) 0x00000000#32 reduces_S1024x1024_S1024_2 (.inl rfl) rfl) shapeCasts_S1024_S1x1024) broadcasts_S1x1024_S1024x1024)

/-- The body's first sixty statements are these stages composed. -/
theorem pay2_eq (v0 : Vec F S1x1024x64 .f32) (v2 : Vec F S64x24 .f32) (v3 : Vec F S24 .f32) :
    k0_pay2 v0 v2 v3 = mulf (broadcast S1024x1024 (Scalar.ofBits .f32 0x3F000000#32))
      (addf (rowSoftmaxBlock (similarityBlock (hiddenBlock v0 v2 v3))) (colSoftmaxBlock (similarityBlock (hiddenBlock v0 v2 v3)))) := rfl

end Stages

/-! ## Each stage at an index -/

theorem hiddenBlock_apply (v0 : Vec Ideal S1x1024x64 .f32) (v2 : Vec Ideal S64x24 .f32) (v3 : Vec Ideal S24 .f32)
    (n : Fin 1024) (h : Fin 24) :
    hiddenBlock v0 v2 v3 (ix2 n h)
      = Cert.Adjacency.hidden (fun n f => v0 (ix3 (0 : Fin 1) n f)) (fun f h => v2 (ix2 f h)) (fun h => v3 (ix1 h)) n h := by
  unfold hiddenBlock Cert.Adjacency.hidden
  simp only [matmul]
  rw [maximumf_apply, addf_apply, broadcast_apply,
    Cert.Sage.BlockRead.matmul_apply2 _ none rfl rfl lin_l0 lin_l1 lin_r0 lin_r1,
    broadcastTo_1b_ab_apply, shapeCast_a_1a_apply]
  refine congrArg (fun s => max (s + v3 (ix1 h)) _) (Finset.sum_congr rfl fun f _ => ?_)
  rw [truncf_apply, truncf_apply, shapeCast_1ab_ab_apply]

theorem similarityBlock_apply (z : FVec Ideal S1024x24 .f32) (n m : Fin 1024) :
    similarityBlock z (ix2 n m) = similarity (fun n h => z (ix2 n h)) n m := by
  unfold similarityBlock similarity
  simp only [matmul]
  rw [Cert.BlockFold.matmul_transposed_apply _ none rfl rfl sim_l0 sim_l1 sim_r0 sim_r1]
  rfl

theorem rowExp_apply (a : FVec Ideal S1024x1024 .f32) (n m : Fin 1024) :
    rowExp a (ix2 n m) = Ideal.exp (a (ix2 n m) - rowMax (fun p q => a (ix2 p q)) n) := by
  unfold rowExp rowMax
  show Ideal.exp ((subf a _) (ix2 n m)) = _
  rw [subf_apply, Cert.Sage.BlockRead.broadcastTo_a1_ab_apply, Cert.Sage.BlockRead.shapeCast_a_a1_apply, maximumf_apply,
    broadcast_apply]
  exact congrArg (fun s => Ideal.exp (a (ix2 n m) - max (Ideal.ofBits .f32 0xFF800000#32) s))
    (Cert.BlockFold.rowMax_apply a _ _ _ _ n)

theorem rowSoftmaxBlock_apply (a : FVec Ideal S1024x1024 .f32) (n m : Fin 1024) :
    rowSoftmaxBlock a (ix2 n m) = rowSoftmax (fun p q => a (ix2 p q)) n m := by
  unfold rowSoftmaxBlock rowSoftmax
  rw [divf_apply, Cert.Sage.BlockRead.broadcastTo_a1_ab_apply, Cert.Sage.BlockRead.shapeCast_a_a1_apply]
  refine (congrArg (Ideal.div _) (Cert.Sage.BlockRead.rowSum_apply (rowExp a) _ _ _ _ n)).trans ?_
  rw [rowExp_apply]
  refine congrArg (Ideal.div _) (Finset.sum_congr rfl fun k _ => ?_)
  rw [rowExp_apply]

theorem colExp_apply (a : FVec Ideal S1024x1024 .f32) (n m : Fin 1024) :
    colExp a (ix2 n m) = Ideal.exp (a (ix2 n m) - colMax (fun p q => a (ix2 p q)) m) := by
  unfold colExp colMax
  show Ideal.exp ((subf a _) (ix2 n m)) = _
  rw [subf_apply, broadcastTo_1b_ab_apply, shapeCast_a_1a_apply, maximumf_apply,
    broadcast_apply]
  exact congrArg (fun s => Ideal.exp (a (ix2 n m) - max (Ideal.ofBits .f32 0xFF800000#32) s))
    (Cert.BlockFold.colMax_apply a _ _ _ _ m)

theorem colSoftmaxBlock_apply (a : FVec Ideal S1024x1024 .f32) (n m : Fin 1024) :
    colSoftmaxBlock a (ix2 n m) = colSoftmax (fun p q => a (ix2 p q)) n m := by
  unfold colSoftmaxBlock colSoftmax
  rw [divf_apply, broadcastTo_1b_ab_apply, shapeCast_a_1a_apply]
  refine (congrArg (Ideal.div _) (Cert.BlockFold.colSum_apply (colExp a) _ _ _ _ m)).trans ?_
  rw [colExp_apply]
  refine congrArg (Ideal.div _) (Finset.sum_congr rfl fun k _ => ?_)
  rw [colExp_apply]

/-! ## The block -/

section Block
variable (v0 : Vec Ideal S1x1024x64 .f32) (v2 : Vec Ideal S64x24 .f32) (v3 : Vec Ideal S24 .f32)

/-- The similarity matrix of the batch element whose inputs the block holds. -/
abbrev simOf : Fin 1024 → Fin 1024 → EReal :=
  similarity (Cert.Adjacency.hidden (fun n f => v0 (ix3 (0 : Fin 1) n f)) (fun f h => v2 (ix2 f h)) (fun h => v3 (ix1 h)))

/-- Half the sum of the two softmaxes of the similarity matrix. -/
theorem pay2_apply (n m : Fin 1024) :
    k0_pay2 v0 v2 v3 (ix2 n m)
      = Ideal.ofBits .f32 0x3F000000#32 * (rowSoftmax (simOf v0 v2 v3) n m + colSoftmax (simOf v0 v2 v3) n m) := by
  have hZ : (fun p q => hiddenBlock v0 v2 v3 (ix2 p q))
      = Cert.Adjacency.hidden (fun n f => v0 (ix3 (0 : Fin 1) n f)) (fun f h => v2 (ix2 f h)) (fun h => v3 (ix1 h)) :=
    funext fun p => funext fun q => hiddenBlock_apply v0 v2 v3 p q
  have hA : (fun p q => similarityBlock (hiddenBlock v0 v2 v3) (ix2 p q)) = simOf v0 v2 v3 :=
    funext fun p => funext fun q => by rw [similarityBlock_apply, hZ]
  rw [pay2_eq, mulf_apply, broadcast_apply, addf_apply, rowSoftmaxBlock_apply, colSoftmaxBlock_apply, hA]
  rfl

/-- The row numbers, one per row. -/
theorem pay3_apply (n m : Fin 1024) : k0_pay3 (ix2 n m) = BitVec.ofNat 32 n.val := by
  unfold k0_pay3
  rw [Cert.Sage.BlockRead.broadcastTo_a1_ab_apply, iota_single_apply]

/-- The column numbers, one per column. -/
theorem pay4_apply (n m : Fin 1024) : k0_pay4 (ix2 n m) = BitVec.ofNat 32 m.val := by
  unfold k0_pay4
  rw [broadcastTo_1b_ab_apply, iota_single_apply]

/-- An entry of the averaged softmaxes plus the identity. -/
theorem looped_apply (n k : Fin 1024) :
    FloatOps.addf (k0_pay2 v0 v2 v3 (ix2 n k))
        (FloatOps.sitofp .f32 ((IntOp.cmpi .eq (k0_pay3 (ix2 n k)) (k0_pay4 (ix2 n k))).setWidth 32))
      = looped (simOf v0 v2 v3) n k := by
  rw [pay2_apply, pay3_apply, pay4_apply, Cert.SelfLoop.sitofp_mask n.isLt k.isLt]
  unfold looped eye
  have he : (if n.val = k.val then (1 : EReal) else 0) = if n = k then 1 else 0 := by
    by_cases h : n = k
    · rw [if_pos h, if_pos (congrArg Fin.val h)]
    · rw [if_neg h, if_neg (fun e => h (Fin.ext e))]
  rw [he]
  rfl

/-- THE BLOCK: at `(0, n, m)` the body stores entry `(n, m)` of the degree-normalised similarity graph. -/
theorem E3_apply (n m : Fin 1024) :
    Cert.KernelIdeal.ValueP.E3 v0 v2 v3 (ix3 (0 : Fin 1) n m)
      = adjacency Ideal.rsqrt (fun n f => v0 (ix3 (0 : Fin 1) n f)) (fun f h => v2 (ix2 f h)) (fun h => v3 (ix1 h)) n m := by
  have h0 : Cert.KernelIdeal.ValueP.ix3_0 (ix3 (0 : Fin 1) n m) = ix2 n m :=
    funext fun a => Fin.ext (by match a with | ⟨0, _⟩ => rfl | ⟨1, _⟩ => rfl)
  have h1 : Cert.KernelIdeal.ValueP.ix3_1 (ix3 (0 : Fin 1) n m) = ix2 n m :=
    funext fun a => Fin.ext (by match a with | ⟨0, _⟩ => rfl | ⟨1, _⟩ => rfl)
  have h2 : Cert.KernelIdeal.ValueP.ix3_2 (ix3 (0 : Fin 1) n m) = ix2 n m :=
    funext fun a => Fin.ext (by match a with | ⟨0, _⟩ => rfl | ⟨1, _⟩ => rfl)
  have h3 : Cert.KernelIdeal.ValueP.ix3_3 (ix3 (0 : Fin 1) n m) = ix1 n :=
    funext fun a => Fin.ext (by match a with | ⟨0, _⟩ => rfl)
  have h4 : Cert.KernelIdeal.ValueP.ix3_4 (ix3 (0 : Fin 1) n m) = ix1 m :=
    funext fun a => Fin.ext (by match a with | ⟨0, _⟩ => rfl)
  have hsum : ∀ p : Fin 1024,
      (multiReduction .add [1] S1024 (addf (k0_pay2 v0 v2 v3) (sitofp .f32 (extui 32 (cmpi .eq (k0_pay3) (k0_pay4)) natLt_1_32))) 0x00000000#32 reduces_S1024x1024_S1024 (.inl rfl) rfl) (ix1 p)
        = ∑ k : Fin 1024, looped (simOf v0 v2 v3) p k := fun p => by
    refine (Cert.Sage.BlockRead.rowSum_apply _ _ _ _ _ p).trans ?_
    exact Finset.sum_congr rfl fun k _ => looped_apply v0 v2 v3 p k
  dsimp only [Cert.KernelIdeal.ValueP.E3]
  rw [h0, h1, h2, h3, h4, hsum n, hsum m, looped_apply]
  rfl

end Block

end Cert.KernelIdeal.Block

end
-- ==== Proof.KernelArray.lean ====
/-
  From blocks to the array.

  The grid has one point per batch element. Point `t` fetches batch element `t` of the inputs (all `1024 × 64` of it) and
  the whole weight matrix and bias, and writes back batch element `t` of the result (all `1024 × 1024` of it). So what a
  point writes back is block `t` of ONE function `G` of the argument arrays — entry `(t, n, m)` is entry `(n, m)` of the
  degree-normalised similarity graph of batch element `t` —, the 32 blocks cover the array, and after the run the
  result array is `G` of the arguments.
-/
import proofs.«162221_j31258771980291_1_alg».proof.Proof.KernelBlock
import Idealize.ShloMosaic.Lib.Pipeline.Value

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Adjacency
open Idealize.ShloMosaic.Pipeline (Dat)

/-- The result array as one function of the argument arrays: at `(t, n, m)`, entry `(n, m)` of the normalised graph of
    batch element `t`. -/
def G (x0 : S32x1024x64.Idx → EReal) (x1 : S64x24.Idx → EReal) (x2 : S24.Idx → EReal) : S32x1024x1024.Idx → EReal :=
  fun i => adjacency Ideal.rsqrt (fun n f => x0 (ix3 (i 0) n f)) (fun f h => x1 (ix2 f h)) (fun h => x2 (ix1 h)) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The index maps over the grid: the inputs' and the result's blocks move along the batch axis with the point; the
    weights' and the bias's stay. -/
theorem index_facts : ∀ t : Fin cfg0.N,
    win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 :=
  (by decide +kernel : ∀ t : Fin grid0.N, _)

/-- A grid point as a batch number. -/
def batchOf (t : Fin cfg0.N) : Fin 32 := ⟨t.val, lt_of_lt_of_eq t.isLt N_0⟩

variable (m : (ℓ : Loc nD τ sig) → Buf (Elt Ideal) ℓ) (ρ : Dev nD → PrngReg)

/-- WHAT POINT `t` WRITES BACK is block `t` of `G` of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  rw [Cert.KernelIdeal.ValueP.flushed3]
  unfold out0_3
  simp only [View.ld_unit_zero (S := S1x1024x64) hz3, View.ld_unit_zero (S := S64x24) hz2, View.ld_unit_zero (S := S24) hz1]
  obtain ⟨f0, f1, f2, g0, g1, g2, w0, w1, b0⟩ := index_facts t
  funext y
  have hy0 : (y 0).val < 1 := (y 0).isLt
  obtain ⟨n, k, rfl⟩ : ∃ n k : Fin 1024, y = ix3 (0 : Fin 1) n k :=
    ⟨y 1, y 2, funext fun a => Fin.ext (by
      match a with
      | ⟨0, _⟩ => show (y 0).val = 0; omega
      | ⟨1, _⟩ => rfl
      | ⟨2, _⟩ => rfl)⟩
  show View.canon [(⟨r0_3, k0_pay1 (k0_pay2 (iblk m c 0 t) (iblk m c 1 t) (iblk m c 2 t)) k0_pay3 k0_pay4⟩ : View.Piece (Elt Ideal) S1x1024x1024 .f32)] (ix3 (0 : Fin 1) n k)
    = G (V m c main_arg0) (V m c main_arg1) (V m c main_arg2) (((cfg0.win 3).blk t).view.emb (ix3 (0 : Fin 1) n k))
  have hemb : ((cfg0.win 3).blk t).view.emb (ix3 (0 : Fin 1) n k) = ix3 (batchOf t) n k := by
    funext a; apply Fin.ext
    match a with
    | ⟨0, _⟩ => show win0_3.index t (0 : Fin 3) * 1 + 1 * 0 = t.val; omega
    | ⟨1, _⟩ => show win0_3.index t (1 : Fin 3) * 1024 + 1 * n.val = n.val; omega
    | ⟨2, _⟩ => show win0_3.index t (2 : Fin 3) * 1024 + 1 * k.val = k.val; omega
  refine Eq.trans ?_ (congrArg (G (V m c main_arg0) (V m c main_arg1) (V m c main_arg2)) hemb.symm)
  refine (Cert.KernelIdeal.ValueP.canon3_eq (iblk m c 0 t) (iblk m c 1 t) (iblk m c 2 t) (ix3 (0 : Fin 1) n k)).trans ?_
  refine (Cert.KernelIdeal.Block.E3_apply (iblk m c 0 t) (iblk m c 1 t) (iblk m c 2 t) n k).trans ?_
  have e0 : (fun (p : Fin 1024) (f : Fin 64) => iblk m c 0 t (ix3 (0 : Fin 1) p f))
      = fun p f => V m c main_arg0 (ix3 (batchOf t) p f) := by
    funext p f
    show V m c main_arg0 (((cfg0.win 0).blk t).view.emb (ix3 (0 : Fin 1) p f)) = V m c main_arg0 (ix3 (batchOf t) p f)
    refine congrArg _ (funext fun a => Fin.ext ?_)
    match a with
    | ⟨0, _⟩ => show win0_0.index t (0 : Fin 3) * 1 + 1 * 0 = t.val; omega
    | ⟨1, _⟩ => show win0_0.index t (1 : Fin 3) * 1024 + 1 * p.val = p.val; omega
    | ⟨2, _⟩ => show win0_0.index t (2 : Fin 3) * 64 + 1 * f.val = f.val; omega
  have e1 : (fun (f : Fin 64) (h : Fin 24) => iblk m c 1 t (ix2 f h)) = fun f h => V m c main_arg1 (ix2 f h) := by
    funext f h
    show V m c main_arg1 (((cfg0.win 1).blk t).view.emb (ix2 f h)) = V m c main_arg1 (ix2 f h)
    refine congrArg _ (funext fun a => Fin.ext ?_)
    match a with
    | ⟨0, _⟩ => show win0_1.index t (0 : Fin 2) * 64 + 1 * f.val = f.val; omega
    | ⟨1, _⟩ => show win0_1.index t (1 : Fin 2) * 24 + 1 * h.val = h.val; omega
  have e2 : (fun (h : Fin 24) => iblk m c 2 t (ix1 h)) = fun h => V m c main_arg2 (ix1 h) := by
    funext h
    show V m c main_arg2 (((cfg0.win 2).blk t).view.emb (ix1 h)) = V m c main_arg2 (ix1 h)
    refine congrArg _ (funext fun a => Fin.ext ?_)
    match a with
    | ⟨0, _⟩ => show win0_2.index t (0 : Fin 1) * 24 + 1 * h.val = h.val; omega
  rw [e0, e1, e2]
  rfl

/-- An index of the array is in point `t`'s block iff each coordinate is in the block's range on its axis. -/
theorem mem_blk (t : Fin cfg0.N) (i : S32x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v0).slice (win0_3.rect t)).set ↔ _
  rw [View.set_slice_whole, Rect.mem_set_unit]
  exact Iff.rfl

/-- Every index of the result lies in the block of the point with its batch number. -/
theorem cover (i : S32x1024x1024.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 1024 := (i 2).isLt
  refine ⟨⟨(i 0).val, lt_of_lt_of_eq hi0 N_0.symm⟩, flush0_3 _, ?_⟩
  obtain ⟨f0, f1, f2, -⟩ := index_facts ⟨(i 0).val, lt_of_lt_of_eq hi0 N_0.symm⟩
  rw [mem_blk]
  intro a
  match a with
  | ⟨0, _⟩ => show win0_3.index _ (0 : Fin 3) * 1 ≤ (i 0).val ∧ (i 0).val < win0_3.index _ (0 : Fin 3) * 1 + 1; rw [f0]; show (i 0).val * 1 ≤ (i 0).val ∧ (i 0).val < (i 0).val * 1 + 1; omega
  | ⟨1, _⟩ => show win0_3.index _ (1 : Fin 3) * 1024 ≤ (i 1).val ∧ (i 1).val < win0_3.index _ (1 : Fin 3) * 1024 + 1024; rw [f1]; omega
  | ⟨2, _⟩ => show win0_3.index _ (2 : Fin 3) * 1024 ≤ (i 2).val ∧ (i 2).val < win0_3.index _ (2 : Fin 3) * 1024 + 1024; rw [f2]; omega

/-- THE ARRAY after the run is `G` of the arguments. -/
theorem final (c : Dev nD) :
    (dats m 0 c).arrAt 3 cfg0.N = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2)) (fun t _ => flushed_eq m c t) cover

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.ValueP.run_blocks m ρ)

end Cert.KernelIdeal.Whole

end
-- ==== Proof.ReferenceRead.lean ====
/-
  The reference program, read one entry at a time, is the degree-normalised similarity graph.

  For one batch element the reference computes, in order: the hidden features (the affine map of every node's inputs,
  clipped below at zero); the similarity matrix (inner products of hidden features); the maximum of every row and of
  every column (each folded from `-∞` and compared with `-∞` once more); the exponentials of the entries with the
  row's, respectively the column's, maximum subtracted; their sums along a row, respectively a column, and the two
  softmaxes as quotients; half the sum of the two softmaxes; the identity matrix, built by comparing a row number with
  a column number; the sum of the two (a self loop per node); every row's sum clipped below at a small positive
  constant (the degree); the degree to the power `-1/2`; and the looped matrix scaled by that power of the row's
  degree and of the column's degree. Each lemma below reads one of these stages at explicit coordinates and names it
  with the specification's word for it; the chain ends in the normalised graph, first with the power `-1/2` and then,
  since the two agree on a degree, with the reciprocal square root.
-/
import proofs.«162221_j31258771980291_1_alg».proof.Proof.Gen.ReferenceIdeal.Read
import proofs.«162221_j31258771980291_1_alg».proof.Proof.Adjacency
import proofs.«162221_j31258771980291_1_alg».proof.Proof.SelfLoop
import Idealize.ShloMosaic.Lib.ValueIdx
import Idealize.ShloMosaic.Lib.Pipeline.Value
import Idealize.ShloMosaic.PureOps.Ideal.Laws

noncomputable section

open scoped BigOperators

namespace Cert.ReferenceIdeal.AdjRead

open Cert.ReferenceIdeal Cert.ReferenceIdeal.Gen Cert.ReferenceIdeal.Read Idealize.ShloMosaic Idealize.ShloMosaic.ValueIdx Cert.Adjacency

variable (x0 : (⟨S32x1024x64, .f32⟩ : BufTy).Contents (Elt Ideal)) (x1 : (⟨S64x24, .f32⟩ : BufTy).Contents (Elt Ideal))
  (x2 : (⟨S24, .f32⟩ : BufTy).Contents (Elt Ideal))

/-- Batch element `b`'s node inputs, as a matrix. -/
abbrev inputs (b : Fin 32) : Fin 1024 → Fin 64 → EReal := fun n f => x0 (ix3 b n f)

/-- The weights, as a matrix. -/
abbrev weights : Fin 64 → Fin 24 → EReal := fun f h => x1 (ix2 f h)

/-- The bias, as a vector. -/
abbrev bias : Fin 24 → EReal := fun h => x2 (ix1 h)

/-- Batch element `b`'s similarity matrix. -/
abbrev sim (b : Fin 32) : Fin 1024 → Fin 1024 → EReal :=
  similarity (Cert.Adjacency.hidden (inputs x0 b) (weights x1) (bias x2))

/-- The affine map clipped below at zero: the hidden features. -/
theorem hidden_apply (b : Fin 32) (n : Fin 1024) (h : Fin 24) :
    val_main_v4 (F := Ideal) x0 x1 x2 (ix3 b n h)
      = Cert.Adjacency.hidden (inputs x0 b) (weights x1) (bias x2) n h := by
  rw [val_main_v4_apply, val_main_v3_apply, val_main_v0_apply, val_main_v2_apply, val_main_v1_apply,
    val_main_call0_v0_apply, val_main_call0_cst_apply]
  have el : ∀ k : Fin 64, lidx_main_v0 (ix3 b n h) k = ix3 b n k := fun k =>
    funext fun a => Fin.ext (by match a with | ⟨0, _⟩ => rfl | ⟨1, _⟩ => rfl | ⟨2, _⟩ => rfl)
  have er : ∀ k : Fin 64, ridx_main_v0 (ix3 b n h) k = ix2 k h := fun k =>
    funext fun a => Fin.ext (by match a with | ⟨0, _⟩ => rfl | ⟨1, _⟩ => rfl)
  have eb : idx_main_v1 (idx_main_v2 (ix3 b n h)) = ix1 h :=
    funext fun a => Fin.ext (by match a with | ⟨0, _⟩ => rfl)
  simp only [el, er, eb]
  rfl

/-- The inner products of hidden features: the similarity matrix. -/
theorem similarity_apply (b : Fin 32) (n m : Fin 1024) :
    val_main_v5 (F := Ideal) x0 x1 x2 (ix3 b n m) = sim x0 x1 x2 b n m := by
  rw [val_main_v5_apply]
  have el : ∀ k : Fin 24, lidx_main_v5 (ix3 b n m) k = ix3 b n k := fun k =>
    funext fun a => Fin.ext (by match a with | ⟨0, _⟩ => rfl | ⟨1, _⟩ => rfl | ⟨2, _⟩ => rfl)
  have er : ∀ k : Fin 24, ridx_main_v5 (ix3 b n m) k = ix3 b m k := fun k =>
    funext fun a => Fin.ext (by match a with | ⟨0, _⟩ => rfl | ⟨1, _⟩ => rfl | ⟨2, _⟩ => rfl)
  simp only [el, er, hidden_apply]
  rfl

/-- The largest entry of a row, folded from `-∞` and compared with `-∞` once more. -/
theorem rowMax_apply (b : Fin 32) (n : Fin 1024) :
    val_main_v8 (F := Ideal) x0 x1 x2 (ix2 b n) = rowMax (sim x0 x1 x2 b) n := by
  rw [val_main_v8_apply, val_main_v7_apply, val_main_cst_0_apply]
  unfold val_main_v6
  rw [Host.reduce_eq_fold_single (FloatOps.maximumf (F := Ideal) (φ := .f32)) (val_main_v5 (F := Ideal) x0 x1 x2)
    (val_main_cst (F := Ideal)) reducesTo_S32x1024x1024_S32x1024_d2 (by decide) h_S_ (ix2 b n)]
  have hf : (val_main_v5 (F := Ideal) x0 x1 x2 ∘
        (Shape.Reduces.lift (s := S32x1024x1024) (a := 2) (t := S32x1024) (by decide) (ix2 b n)))
      = fun k : Fin 1024 => sim x0 x1 x2 b n k := funext fun (k : Fin 1024) => by
    have e : Shape.Reduces.lift (s := S32x1024x1024) (a := 2) (t := S32x1024) (by decide) (ix2 b n) k = ix3 b n k :=
      funext fun a => Fin.ext (by match a with | ⟨0, _⟩ => rfl | ⟨1, _⟩ => rfl | ⟨2, _⟩ => rfl)
    show val_main_v5 (F := Ideal) x0 x1 x2 (Shape.Reduces.lift (s := S32x1024x1024) (a := 2) (t := S32x1024) _ (ix2 b n) k) = _
    rw [e]
    exact similarity_apply x0 x1 x2 b n k
  rw [hf]
  rfl

/-- The exponential of an entry with its row's maximum subtracted. -/
theorem rowExp_apply (b : Fin 32) (n m : Fin 1024) :
    val_main_v12 (F := Ideal) x0 x1 x2 (ix3 b n m)
      = Ideal.exp (sim x0 x1 x2 b n m - rowMax (sim x0 x1 x2 b) n) := by
  rw [val_main_v12_apply, val_main_v11_apply, val_main_v10_apply, val_main_v9_apply]
  have e : idx_main_v9 (idx_main_v10 (ix3 b n m)) = ix2 b n :=
    funext fun a => Fin.ext (by match a with | ⟨0, _⟩ => rfl | ⟨1, _⟩ => rfl)
  rw [e, rowMax_apply, similarity_apply]
  rfl

/-- The softmax along a row: the exponential over the row's sum of exponentials. -/
theorem rowSoftmax_apply (b : Fin 32) (n m : Fin 1024) :
    val_main_v16 (F := Ideal) x0 x1 x2 (ix3 b n m) = rowSoftmax (sim x0 x1 x2 b) n m := by
  rw [val_main_v16_apply, val_main_v15_apply, val_main_v14_apply, val_main_v13_apply, val_main_cst_1_apply]
  have e : idx_main_v14 (idx_main_v15 (ix3 b n m)) = ix2 b n :=
    funext fun a => Fin.ext (by match a with | ⟨0, _⟩ => rfl | ⟨1, _⟩ => rfl)
  have ek : ∀ k : Fin 1024, idx_main_v13 (ix2 b n) k = ix3 b n k := fun k =>
    funext fun a => Fin.ext (by match a with | ⟨0, _⟩ => rfl | ⟨1, _⟩ => rfl | ⟨2, _⟩ => rfl)
  rw [e]
  simp only [ek, rowExp_apply]
  rw [Ideal.ofBits_def, Ideal.ofBits_zero_f32, zero_add]
  rfl

/-- The largest entry of a column, folded from `-∞` and compared with `-∞` once more. -/
theorem colMax_apply (b : Fin 32) (m : Fin 1024) :
    val_main_v19 (F := Ideal) x0 x1 x2 (ix2 b m) = colMax (sim x0 x1 x2 b) m := by
  rw [val_main_v19_apply, val_main_v18_apply, val_main_cst_3_apply]
  unfold val_main_v17
  rw [Host.reduce_eq_fold_single (FloatOps.maximumf (F := Ideal) (φ := .f32)) (val_main_v5 (F := Ideal) x0 x1 x2)
    (val_main_cst_2 (F := Ideal)) reducesTo_S32x1024x1024_S32x1024_d1 (by decide) h_S_ (ix2 b m)]
  have hf : (val_main_v5 (F := Ideal) x0 x1 x2 ∘
        (Shape.Reduces.lift (s := S32x1024x1024) (a := 1) (t := S32x1024) (by decide) (ix2 b m)))
      = fun k : Fin 1024 => sim x0 x1 x2 b k m := funext fun (k : Fin 1024) => by
    have e : Shape.Reduces.lift (s := S32x1024x1024) (a := 1) (t := S32x1024) (by decide) (ix2 b m) k = ix3 b k m :=
      funext fun a => Fin.ext (by match a with | ⟨0, _⟩ => rfl | ⟨1, _⟩ => rfl | ⟨2, _⟩ => rfl)
    show val_main_v5 (F := Ideal) x0 x1 x2 (Shape.Reduces.lift (s := S32x1024x1024) (a := 1) (t := S32x1024) _ (ix2 b m) k) = _
    rw [e]
    exact similarity_apply x0 x1 x2 b k m
  rw [hf]
  rfl

/-- The exponential of an entry with its column's maximum subtracted. -/
theorem colExp_apply (b : Fin 32) (n m : Fin 1024) :
    val_main_v23 (F := Ideal) x0 x1 x2 (ix3 b n m)
      = Ideal.exp (sim x0 x1 x2 b n m - colMax (sim x0 x1 x2 b) m) := by
  rw [val_main_v23_apply, val_main_v22_apply, val_main_v21_apply, val_main_v20_apply]
  have e : idx_main_v20 (idx_main_v21 (ix3 b n m)) = ix2 b m :=
    funext fun a => Fin.ext (by match a with | ⟨0, _⟩ => rfl | ⟨1, _⟩ => rfl)
  rw [e, colMax_apply, similarity_apply]
  rfl

/-- The softmax along a column: the exponential over the column's sum of exponentials. -/
theorem colSoftmax_apply (b : Fin 32) (n m : Fin 1024) :
    val_main_v27 (F := Ideal) x0 x1 x2 (ix3 b n m) = colSoftmax (sim x0 x1 x2 b) n m := by
  rw [val_main_v27_apply, val_main_v26_apply, val_main_v25_apply, val_main_v24_apply, val_main_cst_4_apply]
  have e : idx_main_v25 (idx_main_v26 (ix3 b n m)) = ix2 b m :=
    funext fun a => Fin.ext (by match a with | ⟨0, _⟩ => rfl | ⟨1, _⟩ => rfl)
  have ek : ∀ k : Fin 1024, idx_main_v24 (ix2 b m) k = ix3 b k m := fun k =>
    funext fun a => Fin.ext (by match a with | ⟨0, _⟩ => rfl | ⟨1, _⟩ => rfl | ⟨2, _⟩ => rfl)
  rw [e]
  simp only [ek, colExp_apply]
  rw [Ideal.ofBits_def, Ideal.ofBits_zero_f32, zero_add]
  rfl

/-- Half the sum of the two softmaxes. -/
theorem half_apply (b : Fin 32) (n m : Fin 1024) :
    val_main_v30 (F := Ideal) x0 x1 x2 (ix3 b n m)
      = Ideal.ofBits .f32 0x3F000000#32
          * (rowSoftmax (sim x0 x1 x2 b) n m + colSoftmax (sim x0 x1 x2 b) n m) := by
  rw [val_main_v30_apply, val_main_v29_apply, val_main_cst_5_apply, val_main_v28_apply, rowSoftmax_apply,
    colSoftmax_apply]
  rfl

/-- The identity matrix: a row number compared with a column number, the answer read as a float. -/
theorem eye_apply (b : Fin 32) (n m : Fin 1024) :
    val_main_v38 (F := Ideal) (ix3 b n m) = eye n m := by
  rw [val_main_v38_apply, val_main_v37_apply, val_main_v36_apply, val_main_v35_apply, val_main_v34_apply,
    val_main_v31_apply, val_main_v32_apply, val_main_v33_apply, val_main_c_apply]
  show FloatOps.uitofp (F := Ideal) .f32
      (IntOp.cmpi .eq (IntOp.addi (BitVec.ofNat 32 n.val) 0#32) (BitVec.ofNat 32 m.val)) = _
  rw [Cert.SelfLoop.uitofp_mask n.isLt m.isLt]
  unfold eye
  by_cases h : n = m
  · rw [if_pos h, if_pos (congrArg Fin.val h)]
  · rw [if_neg h, if_neg (fun e => h (Fin.ext e))]

/-- Half the sum of the two softmaxes plus a self loop per node. -/
theorem looped_apply (b : Fin 32) (n m : Fin 1024) :
    val_main_v39 (F := Ideal) x0 x1 x2 (ix3 b n m) = looped (sim x0 x1 x2 b) n m := by
  rw [val_main_v39_apply, half_apply, eye_apply]
  rfl

/-- A node's degree: its row sum, clipped below at the small positive constant. -/
theorem degree_apply (b : Fin 32) (n : Fin 1024) :
    val_main_v41 (F := Ideal) x0 x1 x2 (ix2 b n) = degree (sim x0 x1 x2 b) n := by
  rw [val_main_v41_apply, val_main_call1_v1_apply, val_main_call1_v0_apply, val_main_cst_7_apply,
    val_main_v40_apply, val_main_cst_6_apply]
  have ek : ∀ k : Fin 1024, idx_main_v40 (ix2 b n) k = ix3 b n k := fun k =>
    funext fun a => Fin.ext (by match a with | ⟨0, _⟩ => rfl | ⟨1, _⟩ => rfl | ⟨2, _⟩ => rfl)
  simp only [ek, looped_apply]
  rw [Ideal.ofBits_def, Ideal.ofBits_def, Ideal.ofBits_zero_f32, zero_add]
  rfl

/-- The degree to the power `-1/2`. -/
theorem degreePow_apply (b : Fin 32) (n : Fin 1024) :
    val_main_v43 (F := Ideal) x0 x1 x2 (ix2 b n)
      = Ideal.pow (degree (sim x0 x1 x2 b) n) (Ideal.ofBits .f32 0xBF000000#32) := by
  rw [val_main_v43_apply, val_main_v42_apply, val_main_cst_8_apply, degree_apply]
  rfl

/-- The looped matrix scaled by the power `-1/2` of the row's degree and of the column's degree. -/
theorem scaled_apply (b : Fin 32) (n m : Fin 1024) :
    val_main_v49 (F := Ideal) x0 x1 x2 (ix3 b n m)
      = normalised (fun d => Ideal.pow d (Ideal.ofBits .f32 0xBF000000#32)) (sim x0 x1 x2 b) n m := by
  rw [val_main_v49_apply, val_main_v46_apply, val_main_v48_apply, val_main_v47_apply, val_main_v45_apply,
    val_main_v44_apply]
  have e1 : idx_main_v44 (idx_main_v45 (ix3 b n m)) = ix2 b n :=
    funext fun a => Fin.ext (by match a with | ⟨0, _⟩ => rfl | ⟨1, _⟩ => rfl)
  have e2 : idx_main_v47 (idx_main_v48 (ix3 b n m)) = ix2 b m :=
    funext fun a => Fin.ext (by match a with | ⟨0, _⟩ => rfl | ⟨1, _⟩ => rfl)
  rw [e1, e2, degreePow_apply, degreePow_apply, looped_apply]
  rfl

/-- The reference's result, entry by entry, is the normalised graph of the batch element's inputs. -/
theorem result_apply (b : Fin 32) (n m : Fin 1024) :
    val_main_v49 (F := Ideal) x0 x1 x2 (ix3 b n m)
      = adjacency Ideal.rsqrt (fun n f => x0 (ix3 b n f)) (fun f h => x1 (ix2 f h)) (fun h => x2 (ix1 h)) n m := by
  rw [scaled_apply]
  unfold adjacency
  exact normalised_pow_eq _ n m

end Cert.ReferenceIdeal.AdjRead

end
-- ==== Proof.lean ====
/-
  The kernel and its reference compute the same degree-normalised similarity graph.

  For inputs `xt` (32 batch elements of 1024 nodes with 64 features), a weight matrix `W` (64 × 24) and a bias `b`, both
  programs form, per batch element, the hidden features `Z = max (xt · W + b) 0`, the similarity matrix `A = Z · Zᵀ`, the
  average of the softmax of `A` along its rows and the softmax along its columns, add the identity, take each row's sum
  clipped below at a small positive constant as the node's degree `d`, and scale entry `(n, m)` by `d n ^ (-1/2)` and
  `d m ^ (-1/2)`. On the extended reals they do so operation for operation in the same order and grouping — a change of
  float format is the identity, a matrix product into a zero accumulator and a contraction are the same sum, a reduction
  along an axis is the same sum or the same fold of `max` — with one difference: the kernel takes the reciprocal square
  root of the degree where the reference raises it to the power `-1/2`. A degree is a maximum with a positive real, so a
  positive real or `⊤`, and there the two agree (`Cert.Adjacency.pow_neg_half_max`). No finiteness of the inputs is used.

  `Cert.Adjacency` states the graph entry by entry; `Cert.KernelIdeal.Block` reads one block of the kernel at an index,
  `Cert.KernelIdeal.Whole` puts the 32 blocks together into the result array; `Cert.ReferenceIdeal.AdjRead` reads the
  reference's result at an index. The idealization rewrote nothing, so `preserves` is `True`; the two kernels' frames
  are their generated runs, the reference's frame its generated run with the result dropped.
-/
import proofs.«162221_j31258771980291_1_alg».proof.Defs
import proofs.«162221_j31258771980291_1_alg».proof.Proof.Gen.Kernel
import proofs.«162221_j31258771980291_1_alg».proof.Proof.Gen.Kernel.Skeleton
import proofs.«162221_j31258771980291_1_alg».proof.Proof.Gen.Kernel.Launch
import proofs.«162221_j31258771980291_1_alg».proof.Proof.Gen.Kernel.Points
import proofs.«162221_j31258771980291_1_alg».proof.Proof.Gen.Kernel.Frame
import proofs.«162221_j31258771980291_1_alg».proof.Proof.Gen.KernelIdeal
import proofs.«162221_j31258771980291_1_alg».proof.Proof.Gen.KernelIdeal.Skeleton
import proofs.«162221_j31258771980291_1_alg».proof.Proof.Gen.KernelIdeal.Launch
import proofs.«162221_j31258771980291_1_alg».proof.Proof.Gen.KernelIdeal.Points
import proofs.«162221_j31258771980291_1_alg».proof.Proof.Gen.KernelIdeal.Frame
import proofs.«162221_j31258771980291_1_alg».proof.Proof.Gen.ReferenceIdeal
import proofs.«162221_j31258771980291_1_alg».proof.Proof.Gen.Pre_finite_inputs
import proofs.«162221_j31258771980291_1_alg».proof.Proof.KernelValueP
import proofs.«162221_j31258771980291_1_alg».proof.Proof.Gen.ReferenceIdeal.Run
import proofs.«162221_j31258771980291_1_alg».proof.Proof.Gen.ReferenceIdeal.Read
import proofs.«162221_j31258771980291_1_alg».proof.Proof.KernelArray
import proofs.«162221_j31258771980291_1_alg».proof.Proof.ReferenceRead
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end with the result array at the same function
    of the arguments: entry `(t, n, m)` is entry `(n, m)` of the normalised graph of batch element `t`. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2.1, (hagree c).2.2]
  funext i
  obtain ⟨t, n, k, rfl⟩ : ∃ (t : Fin 32) (n k : Fin 1024), i = ix3 t n k := ⟨i 0, i 1, i 2, eq_ix3 i⟩
  exact Cert.ReferenceIdeal.AdjRead.result_apply _ _ _ t n k

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
